-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S2x2048x4096 .f32) (main_arg1 : FVec F S11008x4096 .f32) (main_arg2 : FVec F S11008x1 .f32) (main_arg3 : FVec F S11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x1 .f32 := Host.absf main_arg2
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  let main_v14 : FVec F S11008 .f32 := Host.absf main_arg3
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S11008x1 : Shape := ⟨2, ![11008, 1]⟩
abbrev S11008 : Shape := ⟨1, ![11008]⟩
abbrev S4096x4096 : Shape := ⟨2, ![4096, 4096]⟩
abbrev S1x11008 : Shape := ⟨2, ![1, 11008]⟩
abbrev S4096x11008 : Shape := ⟨2, ![4096, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S2x2048x11008 : Shape := ⟨3, ![2, 2048, 11008]⟩

abbrev nBuf : Space → Nat
  | .hbm => 12
  | .vmem => 8
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x1, .f32⟩
  | .hbm, ⟨3, _⟩ => ⟨S11008, .f32⟩
  | .hbm, ⟨4, _⟩ => ⟨S4096x4096, .f32⟩
  | .hbm, ⟨5, _⟩ => ⟨S4096x4096, .bf16⟩
  | .hbm, ⟨6, _⟩ => ⟨S11008x4096, .f32⟩
  | .hbm, ⟨7, _⟩ => ⟨S11008x4096, .f32⟩
  | .hbm, ⟨8, _⟩ => ⟨S11008x4096, .bf16⟩
  | .hbm, ⟨9, _⟩ => ⟨S1x11008, .f32⟩
  | .hbm, ⟨10, _⟩ => ⟨S4096x11008, .f32⟩
  | .hbm, ⟨11, _⟩ => ⟨S2x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x2048x4096_S4096x4096 : S2x2048x4096.ShapeCasts S4096x4096
  bitsLt_bf16_f32 : FTy.bits .bf16 < FTy.bits .f32
  bcast_S11008x1_S11008x4096_0_1 : S11008x1.BroadcastsInDim S11008x4096 (![0, 1] : Fin 2 → Fin S11008x4096.rank)
  shapeCasts_S11008_S1x11008 : S11008.ShapeCasts S1x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S4096x11008_S2x2048x11008 : S4096x11008.ShapeCasts S2x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x11008.size a
  hwx0_3 : ∀ i : grid0.Coords, EltTy.bits .f32 = 32 ∨ (Rect.block (s := S4096x11008) S1024x256.size (cc0_transform_3 i) (hinb0_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S11008x1 : Shape := ⟨2, ![11008, 1]⟩
abbrev S11008 : Shape := ⟨1, ![11008]⟩
abbrev S2x2048x11008 : Shape := ⟨3, ![2, 2048, 11008]⟩
abbrev S1x1x11008 : Shape := ⟨3, ![1, 1, 11008]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S11008x4096, .f32⟩
  | .hbm, ⟨6, _⟩ => ⟨S2x2048x11008, .f32⟩
  | .hbm, ⟨7, _⟩ => ⟨S1x1x11008, .f32⟩
  | .hbm, ⟨8, _⟩ => ⟨S2x2048x11008, .f32⟩
  | .hbm, ⟨9, _⟩ => ⟨S2x2048x11008, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S2x2048x11008_0_1_2 : S1x1x11008.BroadcastsInDim S2x2048x11008 (![0, 1, 2] : Fin 3 → Fin S2x2048x11008.rank)
  dot_S2x2048x4096_S11008x4096_S2x2048x11008_2_1_01_0_n_n_wf : DotDims.WF S2x2048x4096 S11008x4096 S2x2048x11008 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf

class Facts : Prop extends Facts₀ where

variable [Facts]
-- ==== Proof.Spec.lean ====
/-
  The function both programs compute, over the extended reals.

  A linear layer whose weight matrix is stored with one scale per output channel: for a batch entry `(p, q)` and an
  output channel `o`,

      y[p, q, o] = (∑ k, x[p, q, k] · (w[o, k] · s[o, 0])) + b[o].

  The scale multiplies the weight entry before the product with the activation, and the bias is added after the sum:
  this grouping is the one both programs use, so no law of the extended reals beyond reading each operation at an
  index is needed to join them.

  `rowsTimesRows` is the same contraction on matrices already prepared: every row of a `4096 × 4096` matrix against
  every row of an `11008 × 4096` matrix, plus a row vector. The layer is that contraction of the activations laid
  out as `4096 = 2 · 2048` rows, of the scaled weights, and of the bias as a `1 × 11008` row, read back in the
  `2 × 2048 × 11008` layout (`rows_reshaped`, in the module that reads the program's result).
-/
import Idealize.ShloMosaic.PureOps.Ideal
import Idealize.ShloMosaic.Lib.ValueIdx

noncomputable section

open scoped BigOperators

namespace Cert.DequantLinear

open Idealize.ShloMosaic Idealize.ShloMosaic.ValueIdx

/-- Entry `(r, o)`: row `r` of `X` against row `o` of `W`, summed over the shared axis, plus entry `o` of the row `B`. -/
def rowsTimesRows (X : (⟨2, ![4096, 4096]⟩ : Shape).Idx → EReal) (W : (⟨2, ![11008, 4096]⟩ : Shape).Idx → EReal)
    (B : (⟨2, ![1, 11008]⟩ : Shape).Idx → EReal) : (⟨2, ![4096, 11008]⟩ : Shape).Idx → EReal :=
  fun j => (∑ k : Fin 4096, X (ix2 (j 0) k) * W (ix2 (j 1) k)) + B (ix2 (0 : Fin 1) (j 1))

theorem rowsTimesRows_apply (X : (⟨2, ![4096, 4096]⟩ : Shape).Idx → EReal) (W : (⟨2, ![11008, 4096]⟩ : Shape).Idx → EReal)
    (B : (⟨2, ![1, 11008]⟩ : Shape).Idx → EReal) (r : Fin 4096) (o : Fin 11008) :
    rowsTimesRows X W B (ix2 r o) = (∑ k : Fin 4096, X (ix2 r k) * W (ix2 o k)) + B (ix2 (0 : Fin 1) o) := rfl

/-- The layer: activations `x`, stored weights `w`, one scale per output channel `s`, bias `b`. -/
def linear (x : (⟨3, ![2, 2048, 4096]⟩ : Shape).Idx → EReal) (w : (⟨2, ![11008, 4096]⟩ : Shape).Idx → EReal)
    (s : (⟨2, ![11008, 1]⟩ : Shape).Idx → EReal) (b : (⟨1, ![11008]⟩ : Shape).Idx → EReal) :
    (⟨3, ![2, 2048, 11008]⟩ : Shape).Idx → EReal :=
  fun i => (∑ k : Fin 4096, x (ix3 (i 0) (i 1) k) * (w (ix2 (i 2) k) * s (ix2 (i 2) (0 : Fin 1)))) + b (ix1 (i 2))

theorem linear_apply (x : (⟨3, ![2, 2048, 4096]⟩ : Shape).Idx → EReal) (w : (⟨2, ![11008, 4096]⟩ : Shape).Idx → EReal)
    (s : (⟨2, ![11008, 1]⟩ : Shape).Idx → EReal) (b : (⟨1, ![11008]⟩ : Shape).Idx → EReal)
    (p : Fin 2) (q : Fin 2048) (o : Fin 11008) :
    linear x w s b (ix3 p q o)
      = (∑ k : Fin 4096, x (ix3 p q k) * (w (ix2 o k) * s (ix2 o (0 : Fin 1)))) + b (ix1 o) := rfl

end Cert.DequantLinear

end
-- ==== Proof.RefValue.lean ====
/-
  The reference, read at an index: its result is `linear` of its four arguments.

  The reference broadcasts the per-channel scale along the rows of the weight matrix, multiplies the weights by it,
  contracts the activations with the scaled weights over the last axis of each, and adds the bias broadcast over the
  two batch axes. Read at `(p, q, o)`: the contraction is the sum over `k` of `x[p, q, k]` times the scaled weight
  at `(o, k)`, the scaled weight is `w[o, k] · s[o, 0]`, and the broadcast bias is `b[o]`.
-/
import proofs.«114985_j27427661152808_2_alg».proof.Proof.Gen.ReferenceIdeal.Read
import proofs.«114985_j27427661152808_2_alg».proof.Proof.Spec

noncomputable section

open scoped BigOperators

namespace Cert.ReferenceIdeal.RefValue

open Cert.ReferenceIdeal Cert.ReferenceIdeal.Read Cert.DequantLinear
open Idealize.ShloMosaic Idealize.ShloMosaic.ValueIdx

/-- The operand of the contraction on the left, at output index `(p, q, o)` and position `k`: `x[p, q, k]`. -/
theorem lidx_eq (p : Fin 2) (q : Fin 2048) (o : Fin 11008) (k : Fin 4096) :
    lidx_main_v2 (ix3 p q o) k = ix3 p q k :=
  funext fun a => Fin.ext (by match a with | ⟨0, _⟩ => rfl | ⟨1, _⟩ => rfl | ⟨2, _⟩ => rfl)

/-- On the right: the scaled weight at `(o, k)`. -/
theorem ridx_eq (p : Fin 2) (q : Fin 2048) (o : Fin 11008) (k : Fin 4096) :
    ridx_main_v2 (ix3 p q o) k = ix2 o k :=
  funext fun a => Fin.ext (by match a with | ⟨0, _⟩ => rfl | ⟨1, _⟩ => rfl)

/-- The scale broadcast along a row of the weights reads the row's one scale. -/
theorem sidx_eq (o : Fin 11008) (k : Fin 4096) : idx_main_v0 (ix2 o k) = ix2 o (0 : Fin 1) :=
  funext fun a => Fin.ext (by match a with | ⟨0, _⟩ => rfl | ⟨1, _⟩ => rfl)

/-- The bias broadcast over the batch axes reads the channel's bias. -/
theorem bidx_eq (p : Fin 2) (q : Fin 2048) (o : Fin 11008) :
    idx_main_v3 (idx_main_v4 (ix3 p q o)) = ix1 o :=
  funext fun a => Fin.ext (by match a with | ⟨0, _⟩ => rfl)

/-- The reference's result is the layer of its arguments. -/
theorem result_eq (x0 : (⟨S2x2048x4096, .f32⟩ : BufTy).Contents (Elt Ideal))
    (x1 : (⟨S11008x4096, .f32⟩ : BufTy).Contents (Elt Ideal)) (x2 : (⟨S11008x1, .f32⟩ : BufTy).Contents (Elt Ideal))
    (x3 : (⟨S11008, .f32⟩ : BufTy).Contents (Elt Ideal)) :
    val_main_v5 (F := Ideal) x0 x1 x2 x3 = linear x0 x1 x2 x3 := by
  funext i
  obtain ⟨p, q, o, rfl⟩ : ∃ (p : Fin 2) (q : Fin 2048) (o : Fin 11008), i = ix3 p q o := ⟨i 0, i 1, i 2, eq_ix3 i⟩
  rw [val_main_v5_apply, val_main_v2_apply, val_main_v4_apply, val_main_v3_apply, bidx_eq, linear_apply]
  refine congrArg (· + x3 (ix1 o)) (Finset.sum_congr rfl fun k _ => ?_)
  rw [lidx_eq, ridx_eq, val_main_v1_apply, val_main_v0_apply, sidx_eq]
  rfl

end Cert.ReferenceIdeal.RefValue

end
-- ==== Proof.Payload.lean ====
/-
  The kernel body's arithmetic, read at an index.

  At one grid point the body holds a `1024 × 4096` block of activations, a `256 × 4096` block of scaled weights and a
  `1 × 256` block of bias. It contracts the two matrix blocks over their shared last axis on the matrix unit, into an
  accumulator of zeros, and adds the bias row broadcast down the `1024` rows. Over the extended reals the entry
  `(p, q)` of what it stores is therefore

      (∑ k, a[p, k] · w[q, k]) + b[0, q]:

  the zero accumulator contributes `0 +`, the contraction over a single axis is the sum over that axis's coordinate,
  and the casts of a block to its own shape change nothing.
-/
import proofs.«114985_j27427661152808_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-- Where the contraction reads its left operand: the output's row, on the operand's first axis; -/
theorem lhs_row (i : S1024x256.Idx) (κ : dot_S1024x4096_S256x4096_S1024x256_1_1_0_0_n_n.contr.Idx) :
    (dot_S1024x4096_S256x4096_S1024x256_1_1_0_0_n_n.lhsIdx i κ 0).val = (i 0).val := by
  unfold DotDims.lhsIdx
  rw [dif_neg (show ¬(0 : Fin S1024x4096.rank) ∈ dot_S1024x4096_S256x4096_S1024x256_1_1_0_0_n_n.lhsBatch by decide),
    dif_pos (show (0 : Fin S1024x4096.rank) ∈ dot_S1024x4096_S256x4096_S1024x256_1_1_0_0_n_n.lhsNonContracting by decide)]
  rfl
/-- the contracted position, on its second. -/
theorem lhs_col (i : S1024x256.Idx) (κ : dot_S1024x4096_S256x4096_S1024x256_1_1_0_0_n_n.contr.Idx) :
    (dot_S1024x4096_S256x4096_S1024x256_1_1_0_0_n_n.lhsIdx i κ 1).val = (κ ⟨0, by decide⟩).val :=
  dot_S1024x4096_S256x4096_S1024x256_1_1_0_0_n_n.lhsIdx_val_of_single rfl i κ
/-- Its right operand: the output's column, on the operand's first axis; -/
theorem rhs_row (i : S1024x256.Idx) (κ : dot_S1024x4096_S256x4096_S1024x256_1_1_0_0_n_n.contr.Idx) :
    (dot_S1024x4096_S256x4096_S1024x256_1_1_0_0_n_n.rhsIdx i κ 0).val = (i 1).val := by
  unfold DotDims.rhsIdx
  rw [dif_neg (show ¬(0 : Fin S256x4096.rank) ∈ dot_S1024x4096_S256x4096_S1024x256_1_1_0_0_n_n.rhsBatch by decide),
    dif_pos (show (0 : Fin S256x4096.rank) ∈ dot_S1024x4096_S256x4096_S1024x256_1_1_0_0_n_n.rhsNonContracting by decide)]
  rfl
/-- the contracted position, on its second. -/
theorem rhs_col (i : S1024x256.Idx) (κ : dot_S1024x4096_S256x4096_S1024x256_1_1_0_0_n_n.contr.Idx) :
    (dot_S1024x4096_S256x4096_S1024x256_1_1_0_0_n_n.rhsIdx i κ 1).val = (κ ⟨0, by decide⟩).val :=
  dot_S1024x4096_S256x4096_S1024x256_1_1_0_0_n_n.rhsIdx_val_of_single rfl i κ

/-- The matrix unit's contraction of the two blocks, into zeros, at `(p, q)`: the sum over the shared axis. -/
theorem contraction_apply (a : FVec Ideal S1024x4096 .bf16) (w : FVec Ideal S256x4096 .bf16) (p : Fin 1024) (q : Fin 256) :
    matmul dot_S1024x4096_S256x4096_S1024x256_1_1_0_0_n_n none a w (constant (F := Ideal) S1024x256 .f32 0x00000000#32) (ix2 p q)
      = ∑ k : Fin 4096, a (ix2 p k) * w (ix2 q k) := by
  refine (Ideal.matmul_constant_zero_apply dot_S1024x4096_S256x4096_S1024x256_1_1_0_0_n_n none a w (ix2 p q)).trans ?_
  rw [← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q) ((contrEquiv1 dot_S1024x4096_S256x4096_S1024x256_1_1_0_0_n_n 4096 rfl rfl).symm k) = ix2 p k :=
    funext fun d => Fin.ext (by
      match d with
      | ⟨0, _⟩ => exact lhs_row _ _
      | ⟨1, _⟩ => exact (lhs_col _ _).trans hk)
  have er : dot_S1024x4096_S256x4096_S1024x256_1_1_0_0_n_n.rhsIdx (ix2 p q) ((contrEquiv1 dot_S1024x4096_S256x4096_S1024x256_1_1_0_0_n_n 4096 rfl rfl).symm k) = ix2 q k :=
    funext fun d => Fin.ext (by
      match d with
      | ⟨0, _⟩ => exact rhs_row _ _
      | ⟨1, _⟩ => exact (rhs_col _ _).trans hk)
  rw [el, er]

/-- The bias row broadcast down the rows reads, at `(p, q)`, the row's entry `q`. -/
theorem bias_apply (b : FVec Ideal S1x256 .f32) (p : Fin 1024) (q : Fin 256) :
    broadcastTo S1024x256 b broadcasts_S1x256_S1024x256 (ix2 p q) = b (ix2 (0 : Fin 1) q) :=
  broadcastTo_apply b broadcasts_S1x256_S1024x256 (ix2 p q) (ix2 (0 : Fin 1) q) (fun d => by
    match d with
    | ⟨0, _⟩ => show 0 = if (1 : Nat) = 1 then 0 else _; rw [if_pos rfl]
    | ⟨1, _⟩ => show q.val = if (256 : Nat) = 1 then 0 else q.val; rw [if_neg (by decide)])

/-- What the body stores, at `(p, q)`. -/
theorem stored_apply (a : Vec Ideal S1024x4096 .bf16) (w : Vec Ideal S256x4096 .bf16) (b : Vec Ideal S1x256 .f32)
    (p : Fin 1024) (q : Fin 256) :
    k0_pay1 (F := Ideal) a w b (ix2 p q) = (∑ k : Fin 4096, a (ix2 p k) * w (ix2 q k)) + b (ix2 (0 : Fin 1) q) := by
  unfold k0_pay1
  simp only [shapeCast_self]
  refine (addf_apply _ _ (ix2 p q)).trans ?_
  rw [contraction_apply, bias_apply]

end Cert.KernelIdeal.Body

end
-- ==== Proof.Staged.lean ====
/-
  The three matrices the kernel is launched on, read at an index.

  Before the kernel runs, the program lays the activations out as a `4096 × 4096` matrix (row `p · 2048 + q` is the
  batch entry `(p, q)`) and narrows its format; multiplies each weight by its row's scale and narrows the format; and
  views the bias as a `1 × 11008` row. Over the extended reals a change of format is the identity, so

      acts[p · 2048 + q, k] = x[p, q, k],     weights[o, k] = w[o, k] · s[o, 0],     biasRow[0, o] = b[o].
-/
import proofs.«114985_j27427661152808_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Staged

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The four arguments on core `c`, as arrays of extended reals: activations, stored weights, scales, bias. -/
abbrev argX (c : Dev nD) : FVec Ideal S2x2048x4096 .f32 := m ((c : Thread nD τ).loc main_arg0)
abbrev argW (c : Dev nD) : FVec Ideal S11008x4096 .f32 := m ((c : Thread nD τ).loc main_arg1)
abbrev argS (c : Dev nD) : FVec Ideal S11008x1 .f32 := m ((c : Thread nD τ).loc main_arg2)
abbrev argB (c : Dev nD) : FVec Ideal S11008 .f32 := m ((c : Thread nD τ).loc main_arg3)

/-- The three matrices as the kernel finds them. -/
abbrev acts (c : Dev nD) : FVec Ideal S4096x4096 .bf16 := V m c main_v1
abbrev weights (c : Dev nD) : FVec Ideal S11008x4096 .bf16 := V m c main_v4
abbrev biasRow (c : Dev nD) : FVec Ideal S1x11008 .f32 := V m c main_v5

/-- The activation matrix: the argument re-laid as `4096 × 4096`, format narrowed. -/
theorem acts_eq (c : Dev nD) :
    acts m c = truncf (F := Ideal) .bf16 (shapeCast S4096x4096 (argX m c) shapeCasts_S2x2048x4096_S4096x4096) bitsLt_bf16_f32 := by
  show StableHlo.after (hostOps0 (F := Ideal)) (fun b => m (c, b)) (Proc.devRef .tc main_v1) = _
  after_results
  rfl

/-- The weight matrix: each weight times its row's scale, format narrowed. -/
theorem weights_eq (c : Dev nD) :
    weights m c = truncf (F := Ideal) .bf16 (mulf (argW m c)
        (broadcastInDim S11008x4096 ![0, 1] bcast_S11008x1_S11008x4096_0_1 (argS m c))) bitsLt_bf16_f32 := by
  show StableHlo.after (hostOps0 (F := Ideal)) (fun b => m (c, b)) (Proc.devRef .tc main_v4) = _
  after_results

/-- The bias: the argument viewed as one row. -/
theorem biasRow_eq (c : Dev nD) :
    biasRow m c = shapeCast S1x11008 (argB m c) shapeCasts_S11008_S1x11008 := by
  show StableHlo.after (hostOps0 (F := Ideal)) (fun b => m (c, b)) (Proc.devRef .tc main_v5) = _
  after_results
  rfl

/-- Row `p · 2048 + q` of the activation matrix is the batch entry `(p, q)`. -/
theorem acts_apply (c : Dev nD) (r : Fin 4096) (k : Fin 4096) (p : Fin 2) (q : Fin 2048) (hr : r.val = p.val * 2048 + q.val) :
    acts m c (ix2 r k) = argX m c (ix3 p q k) := by
  rw [acts_eq]
  show shapeCast S4096x4096 (argX m c) shapeCasts_S2x2048x4096_S4096x4096 (ix2 r k) = _
  refine shapeCast_apply _ _ (ix2 r k) (ix3 p q k) ?_
  rw [Shape.rowMajor_val_three, Shape.rowMajor_val_two]
  show (p.val * 2048 + q.val) * 4096 + k.val = r.val * 4096 + k.val
  rw [hr]

/-- Entry `(o, k)` of the weight matrix is the stored weight times the scale of row `o`. -/
theorem weights_apply (c : Dev nD) (o : Fin 11008) (k : Fin 4096) :
    weights m c (ix2 o k) = argW m c (ix2 o k) * argS m c (ix2 o (0 : Fin 1)) := by
  rw [weights_eq]
  show argW m c (ix2 o k) * broadcastInDim S11008x4096 ![0, 1] bcast_S11008x1_S11008x4096_0_1 (argS m c) (ix2 o k) = _
  refine congrArg (argW m c (ix2 o k) * ·) ?_
  exact broadcastInDim_apply _ bcast_S11008x1_S11008x4096_0_1 _ (ix2 o k) (ix2 o (0 : Fin 1)) (fun a => match a with
    | ⟨0, _⟩ => by show o.val = if (11008 : Nat) = 1 then 0 else o.val; rw [if_neg (by decide)]
    | ⟨1, _⟩ => by show 0 = if (1 : Nat) = 1 then 0 else k.val; rw [if_pos rfl])

/-- Entry `o` of the bias row is the bias of channel `o`. -/
theorem biasRow_apply (c : Dev nD) (o : Fin 11008) :
    biasRow m c (ix2 (0 : Fin 1) o) = argB m c (ix1 o) := by
  rw [biasRow_eq]
  refine shapeCast_apply _ _ (ix2 (0 : Fin 1) o) (ix1 o) ?_
  rw [Shape.rowMajor_val_one, Shape.rowMajor_val_two]
  show o.val = 0 * 11008 + o.val
  omega

end Cert.KernelIdeal.Staged

end
-- ==== Proof.Blocks.lean ====
/-
  From blocks to the whole output matrix.

  The grid has `4 × 43` points. At point `(i, j)` the kernel is given rows `1024 i … 1024 i + 1023` of the
  activation matrix, rows `256 j … 256 j + 255` of the weight matrix and columns `256 j … 256 j + 255` of the
  bias row, each over the full contracted axis, and writes back the `1024 × 256` block of the output at block
  position `(i, j)`. Entry `(p, q)` of what it writes is row `1024 i + p` of the activations against row
  `256 j + q` of the weights, plus bias entry `256 j + q`: that is entry `(1024 i + p, 256 j + q)` of
  `rowsTimesRows` of the three whole matrices. So every point writes its block of ONE matrix; the blocks
  cover the `4096 × 11008` output (row `r` lies in block row `r / 1024`, column `o` in block column `o / 256`);
  and the output therefore ends holding that matrix.
-/
import proofs.«114985_j27427661152808_2_alg».proof.Proof.Gen.KernelIdeal.Frame
import proofs.«114985_j27427661152808_2_alg».proof.Proof.Payload
import proofs.«114985_j27427661152808_2_alg».proof.Proof.Spec
import proofs.«114985_j27427661152808_2_alg».proof.Proof.Staged
import Idealize.ShloMosaic.Lib.Pipeline.Value
import Idealize.ShloMosaic.Lib.ValueIdx

noncomputable section

open scoped BigOperators

namespace Cert.KernelIdeal.Blocks

open Cert.KernelIdeal Cert.KernelIdeal.Gen Cert.KernelIdeal.Staged Cert.DequantLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- How the four windows move over the grid: the activations follow the output's block row and the weights and the
    bias its block column; each input spans its whole other axis; the output's block position stays in `4 × 43`. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 42 :=
  (by decide +kernel : ∀ t : Fin grid0.N, _)

/-- Every block position of the output is some point's. -/
theorem index_onto : ∀ (q0 : Fin 4) (q1 : Fin 43), ∃ t : Fin cfg0.N, win0_3.index t = ![q0.val, q1.val] :=
  (by decide +kernel : ∀ (q0 : Fin 4) (q1 : Fin 43), ∃ t : Fin grid0.N, win0_3.index t = ![q0.val, q1.val])

/-- What point `t` writes back is its block of `rowsTimesRows` of the three matrices as the kernel finds them. -/
theorem flushed_eq (c : Dev nD) (t : Fin cfg0.N) :
    (dats m 0 c).flushed 3 t
      = ((cfg0.win 3).blk t).view.read (Elt Ideal) (rowsTimesRows (acts m c) (weights m c) (biasRow m c)) := by
  show (cfg0.win 3).cut (grid0.coords t) ((dats m 0 c).after 3 t) = _
  rw [after0_3]
  unfold out0_3
  rw [View.canon_unit_zero zero_offsets]
  simp only [View.ld_unit_zero (S := S1024x4096) zero_offsets, View.ld_unit_zero (S := S256x4096) zero_offsets,
    View.ld_unit_zero (S := S1x256) zero_offsets]
  obtain ⟨e0, e1, e2, e3, e4, e5, e6, e7⟩ := index_facts t
  refine funext fun (j : S1024x256.Idx) => ?_
  obtain ⟨p, q, rfl⟩ : ∃ (p : Fin 1024) (q : Fin 256), j = ix2 p q := ⟨j 0, j 1, eq_ix2 j⟩
  show k0_pay1 (F := Ideal) (iblk m c 0 t) (iblk m c 1 t) (iblk m c 2 t) (ix2 p q)
    = rowsTimesRows (acts m c) (weights m c) (biasRow m c) (((cfg0.win 3).blk t).view.emb (ix2 p q))
  refine (Body.stored_apply (iblk m c 0 t) (iblk m c 1 t) (iblk m c 2 t) p q).trans ?_
  -- each input block, read where the output's rectangle says
  have h0 : ∀ k : Fin 4096, iblk m c 0 t (ix2 p k)
      = acts m c (ix2 ((((cfg0.win 3).blk t).view.emb (ix2 p q)) 0) k) := fun k => by
    show acts m c (((cfg0.win 0).blk t).view.emb (ix2 p k)) = _
    refine congrArg (acts m c) (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 4096 + 1 * k.val = k.val; omega
  have h1 : ∀ k : Fin 4096, iblk m c 1 t (ix2 q k)
      = weights m c (ix2 ((((cfg0.win 3).blk t).view.emb (ix2 p q)) 1) k) := fun k => by
    show weights m c (((cfg0.win 1).blk t).view.emb (ix2 q k)) = _
    refine congrArg (weights m c) (funext fun a => Fin.ext ?_)
    match a with
    | ⟨0, _⟩ => show win0_1.index t (0 : Fin 2) * 256 + 1 * q.val = win0_3.index t (1 : Fin 2) * 256 + 1 * q.val; omega
    | ⟨1, _⟩ => show win0_1.index t (1 : Fin 2) * 4096 + 1 * k.val = k.val; omega
  have h2 : iblk m c 2 t (ix2 (0 : Fin 1) q)
      = biasRow m c (ix2 (0 : Fin 1) ((((cfg0.win 3).blk t).view.emb (ix2 p q)) 1)) := by
    show biasRow m c (((cfg0.win 2).blk t).view.emb (ix2 (0 : Fin 1) q)) = _
    refine congrArg (biasRow m c) (funext fun a => Fin.ext ?_)
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega
  rw [h2, Finset.sum_congr rfl fun k _ => by rw [h0 k, h1 k]]
  rfl

/-- An index of the output is in point `t`'s block iff each coordinate is in the block's range on its axis. -/
theorem mem_blk (t : Fin cfg0.N) (i : S4096x11008.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v6).slice (win0_3.rect t)).set ↔ _
  rw [View.set_slice_whole, Rect.mem_set_unit]
  exact Iff.rfl

/-- The blocks cover the output: entry `(r, o)` lies in the block at position `(r / 1024, o / 256)`. -/
theorem cover (i : S4096x11008.Idx) :
    ∃ t : Fin cfg0.N, (cfg0.win 3).flush t = true ∧ i ∈ ((cfg0.win 3).blk t).view.set := by
  have hi0 : (i 0).val < 4096 := (i 0).isLt
  have hi1 : (i 1).val < 11008 := (i 1).isLt
  obtain ⟨t, ht⟩ := index_onto ⟨(i 0).val / 1024, by omega⟩ ⟨(i 1).val / 256, by omega⟩
  have q0 : win0_3.index t (0 : Fin 2) = (i 0).val / 1024 := congrFun ht 0
  have q1 : win0_3.index t (1 : Fin 2) = (i 1).val / 256 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

/-- The output matrix after the run. -/
theorem final (c : Dev nD) :
    (dats m 0 c).arrAt 3 cfg0.N = rowsTimesRows (acts m c) (weights m c) (biasRow m c) :=
  (dats m 0 c).arrAt_eq_of_cover 3 _ (fun t _ => flushed_eq m c t) cover

end Cert.KernelIdeal.Blocks

end
-- ==== Proof.Result.lean ====
/-
  The kernel program's result.

  After the kernel, the program views the `4096 × 11008` output matrix as `2 × 2048 × 11008`: entry `(p, q, o)` is
  the matrix's entry `(p · 2048 + q, o)`. The matrix holds row `p · 2048 + q` of the activation matrix against row
  `o` of the weight matrix plus bias entry `o`; the activation row is the batch entry `(p, q)`, the weight row
  is the stored weights of channel `o` times the channel's scale, and the bias entry is the channel's bias. So the
  result is `linear` of the four arguments.
-/
import proofs.«114985_j27427661152808_2_alg».proof.Proof.Blocks
import proofs.«114985_j27427661152808_2_alg».proof.Proof.Staged
import proofs.«114985_j27427661152808_2_alg».proof.Proof.Spec
import Idealize.ShloMosaic.Lib.Pipeline.Value
import Idealize.ShloMosaic.Lib.ValueIdx
import Idealize.ShloMosaic.Lib.StableHlo.Run

noncomputable section

open scoped BigOperators

namespace Cert.KernelIdeal.Result

open Cert.KernelIdeal Cert.KernelIdeal.Gen Cert.KernelIdeal.Staged Cert.DequantLinear
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The matrix form of the layer, read back in the batch layout, is the layer. -/
theorem rows_reshaped (c : Dev nD) (h : S4096x11008.ShapeCasts S2x2048x11008) :
    shapeCast S2x2048x11008 (rowsTimesRows (acts m c) (weights m c) (biasRow m c)) h
      = linear (argX m c) (argW m c) (argS m c) (argB m c) := by
  funext i
  obtain ⟨p, q, o, rfl⟩ : ∃ (p : Fin 2) (q : Fin 2048) (o : Fin 11008), i = ix3 p q o := ⟨i 0, i 1, i 2, eq_ix3 i⟩
  have hr : p.val * 2048 + q.val < 4096 := by have := p.isLt; have := q.isLt; omega
  refine (shapeCast_apply _ h (ix3 p q o) (ix2 (⟨p.val * 2048 + q.val, hr⟩ : Fin 4096) o) ?_).trans ?_
  · rw [Shape.rowMajor_val_two, Shape.rowMajor_val_three]
    show (p.val * 2048 + q.val) * 11008 + o.val = (p.val * 2048 + q.val) * 11008 + o.val
    rfl
  rw [rowsTimesRows_apply, linear_apply, biasRow_apply]
  refine congrArg (· + argB m c (ix1 o)) (Finset.sum_congr rfl fun k _ => ?_)
  rw [acts_apply m c ⟨p.val * 2048 + q.val, hr⟩ k p q rfl, weights_apply]

/-- What the program's result buffer holds after the lines that follow the kernel. -/
theorem result_eq (c : Dev nD) :
    Pipeline.afterTail₀ cfgs (dats m) 0 (V0 m) [hostOps1] c main_v7
      = linear (argX m c) (argW m c) (argS m c) (argB m c) := by
  unfold Pipeline.afterTail₀
  show StableHlo.after (hostOps1 (F := Ideal)) _ (Proc.devRef .tc main_v7) = _
  after_results
  -- the output matrix is the kernel's output window's array, which the run left at `rowsTimesRows`
  have hW : Pipeline.withArrays (cfgs 0).spec c (V0 m c) (fun w => (dats m 0 c).arrAt w (cfgs 0).N) (Proc.devRef .tc main_v6)
      = rowsTimesRows (acts m c) (weights m c) (biasRow m c) :=
    (Pipeline.withArrays_arr spec0 launch0.win.arr_inj c _ _ 3).trans (Blocks.final m c)
  show shapeCast S2x2048x11008 (Pipeline.withArrays (cfgs 0).spec c (V0 m c) (fun w => (dats m 0 c).arrAt w (cfgs 0).N)
      (Proc.devRef .tc main_v6)) shapeCasts_S4096x11008_S2x2048x11008 = _
  rw [hW]
  exact rows_reshaped m c _

/-- The kernel program's run: every weakly fair execution ends with the result buffer holding the layer of the
    arguments, and the arguments as they were. -/
theorem run : θ_run (defs (F := Ideal)) (onTc (τ := τ) (main (F := Ideal))) ⟨m, fun _ => 0, ρ⟩ (fun r => ∀ c : Dev nD,
      r.2.mem ((c.tc : Thread nD τ).loc main_v7) = linear (argX m c) (argW m c) (argS m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  A linear layer with per-channel dequantized weights: the tiled kernel against the plain reference.

  Both programs take activations `x : 2 × 2048 × 4096`, stored weights `w : 11008 × 4096`, one scale per output
  channel `s : 11008 × 1` and a bias `b : 11008`, and over the extended reals both compute

      y[p, q, o] = (∑ k, x[p, q, k] · (w[o, k] · s[o, 0])) + b[o]        (`Cert.DequantLinear.linear`, Proof/Spec.lean).

  The reference does so in one contraction over the last axes of the activations and of the scaled weights
  (Proof/RefValue.lean reads its operations at an index). The kernel program first lays the activations out as a
  `4096 × 4096` matrix, scales the weights and views the bias as a row (Proof/Staged.lean); then a `4 × 43` grid of
  kernel instances each contracts a `1024 × 4096` block of activation rows with a `256 × 4096` block of weight rows
  and adds a `1 × 256` piece of the bias row (Proof/Payload.lean), writing a `1024 × 256` block of a `4096 × 11008`
  output; the blocks tile the output, and each is its block of one matrix (Proof/Blocks.lean); last the output is
  read back as `2 × 2048 × 11008` (Proof/Result.lean). The changes of float format on the way into the matrix unit are
  the identity on the extended reals, and both sides multiply and add in the same grouping, so the two results agree
  entry by entry with no appeal to finiteness of the inputs.

  The three frame claims are the generated frame certificates of the two kernel programs and the reference's
  generated run with its result dropped; the idealization rewrote no operation, so its claim is trivial.
-/
import proofs.«114985_j27427661152808_2_alg».proof.Defs
import proofs.«114985_j27427661152808_2_alg».proof.Proof.Gen.Kernel
import proofs.«114985_j27427661152808_2_alg».proof.Proof.Gen.Kernel.Skeleton
import proofs.«114985_j27427661152808_2_alg».proof.Proof.Gen.Kernel.Launch
import proofs.«114985_j27427661152808_2_alg».proof.Proof.Gen.Kernel.Points
import proofs.«114985_j27427661152808_2_alg».proof.Proof.Gen.Kernel.Frame
import proofs.«114985_j27427661152808_2_alg».proof.Proof.Gen.KernelIdeal
import proofs.«114985_j27427661152808_2_alg».proof.Proof.Gen.KernelIdeal.Skeleton
import proofs.«114985_j27427661152808_2_alg».proof.Proof.Gen.KernelIdeal.Launch
import proofs.«114985_j27427661152808_2_alg».proof.Proof.Gen.KernelIdeal.Points
import proofs.«114985_j27427661152808_2_alg».proof.Proof.Gen.KernelIdeal.Frame
import proofs.«114985_j27427661152808_2_alg».proof.Proof.Gen.ReferenceIdeal
import proofs.«114985_j27427661152808_2_alg».proof.Proof.Gen.Pre_finite_inputs
import proofs.«114985_j27427661152808_2_alg».proof.Proof.Gen.ReferenceIdeal.Run
import proofs.«114985_j27427661152808_2_alg».proof.Proof.Gen.ReferenceIdeal.Read
import proofs.«114985_j27427661152808_2_alg».proof.Proof.Spec
import proofs.«114985_j27427661152808_2_alg».proof.Proof.RefValue
import proofs.«114985_j27427661152808_2_alg».proof.Proof.Result
import Idealize.ShloMosaic.Adequacy
import Idealize.ShloMosaic.Init

noncomputable section

namespace Cert.Proof

open Idealize.ShloMosaic Idealize.SL.Sem Cert.DequantLinear

/-- The kernel program as printed runs to the end, faults nowhere and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel program is the printed one's own text: nothing was rewritten. -/
theorem preserves : Cert.preserves_Kernel_KernelIdeal := trivial

/-- From memories that agree on the four arguments, both programs end with the layer of those arguments in their
    result buffers: the kernel program by `Result.run`, the reference by its run read at an index. -/
theorem algebraic : Cert.algebraic_KernelIdeal_ReferenceIdeal := by
  intro m ρ m' ρ' _ hagree
  refine ⟨fun c => linear (Cert.KernelIdeal.Staged.argX m c) (Cert.KernelIdeal.Staged.argW m c)
      (Cert.KernelIdeal.Staged.argS m c) (Cert.KernelIdeal.Staged.argB m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v5_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
